-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S50000x128 : Shape := ⟨2, ![50000, 128]⟩
abbrev S10000x128 : Shape := ⟨2, ![10000, 128]⟩

abbrev nBuf : Space → Nat
  | .hbm => 50
  | .vmem => 6
  | .smem => 0
  | _ => 0

abbrev bufTy : (tb : Table) → Fin (tcTables nBuf tb) → BufTy
  | .hbm, ⟨0, _⟩ => ⟨S2x6400000, .i32⟩
  | .hbm, ⟨1, _⟩ => ⟨S1x6400000, .i32⟩
  | .hbm, ⟨2, _⟩ => ⟨S6400000, .i32⟩
  | .hbm, ⟨3, _⟩ => ⟨S1x6400000, .i32⟩
  | .hbm, ⟨4, _⟩ => ⟨S6400000, .i32⟩
  | .hbm, ⟨5, _⟩ => ⟨S_, .f32⟩
  | .hbm, ⟨6, _⟩ => ⟨S100000, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S_, .f32⟩
  | .hbm, ⟨16, _⟩ => ⟨S6400000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S6400000, .f32⟩
  | .hbm, ⟨37, _⟩ => ⟨S_, .i32⟩
  | .hbm, ⟨38, _⟩ => ⟨S6400000, .i32⟩
  | .hbm, ⟨39, _⟩ => ⟨S6400000, .i1⟩
  | .hbm, ⟨40, _⟩ => ⟨S_, .i32⟩
  | .hbm, ⟨41, _⟩ => ⟨S6400000, .i32⟩
  | .hbm, ⟨42, _⟩ => ⟨S6400000, .i32⟩
  | .hbm, ⟨43, _⟩ => ⟨S6400000, .i32⟩
  | .hbm, ⟨44, _⟩ => ⟨S6400000x1, .i32⟩
  | .hbm, ⟨45, _⟩ => ⟨S6400000, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S6400000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S50000x128 : S6400000.ShapeCasts S50000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S50000x128_S6400000 : S50000x128.ShapeCasts S6400000
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

abbrev win0_0 : Pipeline.Window sig grid0 :=
  Pipeline.Window.ofSpec (Memref.whole main_v34) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x6400000 : Shape := ⟨2, ![2, 6400000]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S1x6400000, .i32⟩
  | .hbm, ⟨2, _⟩ => ⟨S6400000, .i32⟩
  | .hbm, ⟨3, _⟩ => ⟨S1x6400000, .i32⟩
  | .hbm, ⟨4, _⟩ => ⟨S6400000, .i32⟩
  | .hbm, ⟨5, _⟩ => ⟨S_, .f32⟩
  | .hbm, ⟨6, _⟩ => ⟨S100000, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S_, .f32⟩
  | .hbm, ⟨16, _⟩ => ⟨S6400000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S6400000, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000, .f32⟩
  | .hbm, ⟨48, _⟩ => ⟨S6400000, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S100000 : S_.BroadcastsInDim S100000 (![] : Fin 0 → Fin S100000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

class Facts : Prop extends Facts₀ where

variable [Facts]
-- ==== Proof.LibRsqrtPow.lean ====
/-
  The inverse square root as a power, on the extended reals.

  For a positive real x the power x ^ (-1/2) is 1 / √x: x ^ (-1/2) = (x ^ (1/2))⁻¹ and x ^ (1/2) = √x. The same
  equation holds at +∞, where both sides are 0. It fails at 0 (1/√0 = +∞ while 0 ^ (-1/2) = 0 by convention) and below 0,
  so every statement here carries the hypothesis 0 < x.

  The vector form is a guarded table  where(d > 0, f(d + ε), 0)  with f either the inverse square root or
  the power -1/2. Where the guard d > 0 holds the argument d + ε is positive (ε > 0), so the two tables agree entry by entry;
  where it fails both entries are the third operand.
-/
import Idealize.ShloMosaic.PureOps.Ideal
import Idealize.ShloMosaic.PureOps.Ideal.Laws

noncomputable section

namespace Cert.LibRsqrtPow

open Idealize.ShloMosaic

/-- The f32 word `0xBF000000` (sign 1, exponent 126, significand 0) denotes -1/2. -/
theorem ofBits_neg_half : Ideal.ofBits .f32 0xBF000000#32 = ((-(1 / 2) : ℝ) : EReal) := by
  simp [Ideal.ofBits, Ideal.ieee, -EReal.coe_mul]; norm_num

/-- The f32 word `0x24E69595` (the float nearest 1e-16: exponent 73, significand 0x669595) denotes the positive real
    15111573 · 2^(-77). -/
theorem ofBits_tiny : Ideal.ofBits .f32 0x24E69595#32 = ((15111573 * (2 : ℝ) ^ (-77 : ℤ) : ℝ) : EReal) := by
  simp [Ideal.ofBits, Ideal.ieee, -EReal.coe_mul]

theorem tiny_pos : (0 : ℝ) < 15111573 * (2 : ℝ) ^ (-77 : ℤ) := by positivity

/-- On a positive real, the power -1/2 is the reciprocal of the square root. -/
theorem rpow_neg_half {x : ℝ} (hx : 0 < x) : Real.rpow x (-(1 / 2)) = (Real.sqrt x)⁻¹ := by
  show x ^ (-(1 / 2) : ℝ) = _
  rw [Real.rpow_neg hx.le, Real.sqrt_eq_rpow]

/-- The inverse square root and the power -1/2 agree on every positive extended real: at a positive real by
    `rpow_neg_half`, at +∞ both are 0. -/
theorem rsqrt_eq_pow_neg_half {x : EReal} (hx : 0 < x) :
    Ideal.rsqrt x = Ideal.pow x ((-(1 / 2) : ℝ) : EReal) := by
  induction x using EReal.rec with
  | bot => exact absurd hx (by simp)
  | top =>
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [Ideal.rsqrt_top, Ideal.pow_top, if_neg h1, if_neg h2]
  | coe r =>
    have hr : 0 < r := by exact_mod_cast hx
    rw [Ideal.rsqrt_coe, Ideal.pow_coe_coe, if_neg (not_lt.2 hr.le), if_neg hr.ne', rpow_neg_half hr]

/-- A positive extended real plus a positive real is positive. -/
theorem add_tiny_pos {d : EReal} (hd : 0 < d) {ε : ℝ} (hε : 0 < ε) : 0 < d + (ε : EReal) :=
  EReal.add_pos hd (by exact_mod_cast hε)

variable {s : Shape}

/-- The guarded table of inverse square roots: `where(d > z, rsqrt(d + e), w)` is `where(d > z, (d + e) ^ h, w)` entry by
    entry, when `z` is the zero vector, `e` a positive real constant and `h` the constant -1/2. The third operand `w` is
    arbitrary. -/
theorem guarded_rsqrt_eq_pow (d z e h w : FVec Ideal s .f32) (ε : ℝ) (hε : 0 < ε)
    (hz : ∀ i, z i = 0) (he : ∀ i, e i = (ε : EReal)) (hh : ∀ i, h i = ((-(1 / 2) : ℝ) : EReal)) :
    select (cmpf .ogt d z) (Host.rsqrt (addf d e)) w = select (cmpf .ogt d z) (Host.powf (addf d e) h) w := by
  funext i
  show Scalar.select (Ideal.cmp .ogt (d i) (z i)) (Ideal.rsqrt (d i + e i)) (w i)
      = Scalar.select (Ideal.cmp .ogt (d i) (z i)) (Ideal.pow (d i + e i) (h i)) (w i)
  unfold Scalar.select
  by_cases hc : Ideal.cmp .ogt (d i) (z i) = 1
  · rw [if_pos hc, if_pos hc, hh i, he i]
    have hd : 0 < d i := by
      have : z i < d i := by
        by_contra hn
        have : Ideal.cmp .ogt (d i) (z i) = 0 := by simp [Ideal.cmp, hn]
        rw [this] at hc; exact absurd hc (by decide)
      rwa [hz i] at this
    exact rsqrt_eq_pow_neg_half (add_tiny_pos hd hε)
  · rw [if_neg hc, if_neg hc]

end Cert.LibRsqrtPow

end
-- ==== Proof.EdgeNorm.lean ====
/-
  The symmetric degree normalisation of an edge list, as one function of the edge array.

  The argument is an integer array of shape [2, 6400000]: row 0 holds each edge's source node, row 1 its target node, both
  meant in [0, 100000). Every program of this certificate computes, from that array alone,

    * the two index columns: each row with a negative entry v read as v + 100000 (a negative index counts from the end),
      laid out as a [6400000, 1] column of gather / scatter indices (`srcCol`, `dstCol`);
    * the degree of every node: 1.0 added at each edge's target, into a table of 100000 zeros (`degree`);
    * a table t of the degrees — the inverse square root of (degree + ε) where the degree is positive and 0 elsewhere, the
      inverse square root spelt either as such (`tblRsqrt`) or as the power -1/2 (`tblPow`);
    * and per edge e the product t[src e] · t[dst e] (`edgeProd`).

  The two spellings of the table are one function on the extended reals (`tbl_eq`): where the degree d is positive, d + ε is
  a positive extended real and there x ^ (-1/2) = 1/√x; elsewhere both tables hold the same 0. Nothing is asked of the
  edge array: out-of-range entries reach the same gather and the same scatter on both sides.
-/
import proofs.«147891_j51994874085826_2_alg».proof.Proof.Gen.ReferenceIdeal
import proofs.«147891_j51994874085826_2_alg».proof.Proof.LibRsqrtPow

noncomputable section

namespace Cert.EdgeNorm

open Cert.ReferenceIdeal Cert.ReferenceIdeal.Gen Idealize.ShloMosaic

variable {F : FTy → Type} [FloatOps F]

/-- A row of node numbers as a column of indices, a negative entry `v` read as `v + 100000`. -/
def wrapCol (v : IVec S6400000 32) : IVec S6400000x1 32 :=
  broadcastInDim S6400000x1 ![0] bcast_S6400000_S6400000x1_0
    (select (cmpi .slt v (broadcastInDim S6400000 ![] bcast_S_S6400000 (constantI S_ 32 0#32)))
      (addi v (broadcastInDim S6400000 ![] bcast_S_S6400000 (constantI S_ 32 100000#32))) v)

/-- The edges' source nodes (row 0 of the edge array) as an index column. -/
def srcCol (a : IVec S2x6400000 32) : IVec S6400000x1 32 :=
  wrapCol (shapeCast S6400000 (extractStridedSlice S1x6400000 ![0, 0] a slices_S2x6400000_S1x6400000_0_0) shapeCasts_S1x6400000_S6400000)

/-- The edges' target nodes (row 1 of the edge array) as an index column. -/
def dstCol (a : IVec S2x6400000 32) : IVec S6400000x1 32 :=
  wrapCol (shapeCast S6400000 (extractStridedSlice S1x6400000 ![1, 0] a slices_S2x6400000_S1x6400000_1_0) shapeCasts_S1x6400000_S6400000)

/-- The table of 100000 zeros. -/
def zeroTbl : FVec F S100000 .f32 :=
  broadcastInDim S100000 ![] bcast_S_S100000 (constant (F := F) S_ .f32 0x00000000#32)

/-- The constant table ε (the float nearest 1e-16). -/
def tinyTbl : FVec F S100000 .f32 :=
  broadcastInDim S100000 ![] bcast_S_S100000 (constant (F := F) S_ .f32 0x24E69595#32)

/-- The constant table -1/2. -/
def negHalfTbl : FVec F S100000 .f32 :=
  broadcastInDim S100000 ![] bcast_S_S100000 (constant (F := F) S_ .f32 0xBF000000#32)

/-- Every node's degree: 1.0 added at each edge's target node, into zeros. -/
def degree (a : IVec S2x6400000 32) : FVec F S100000 .f32 :=
  Host.scatterAdd scatter_S100000_S6400000x1_S6400000_n_0_0_1 (zeroTbl (F := F)) (dstCol a)
    (broadcastInDim S6400000 ![] bcast_S_S6400000 (constant (F := F) S_ .f32 0x3F800000#32))

/-- 1/√(d + ε) where d > 0, else 0 — the inverse square root as the host's `rsqrt`. -/
def tblRsqrt (d : FVec F S100000 .f32) : FVec F S100000 .f32 :=
  select (cmpf .ogt d zeroTbl) (Host.rsqrt (addf d tinyTbl)) zeroTbl

/-- (d + ε) ^ (-1/2) where d > 0, else 0 — the inverse square root as the host's `power`. -/
def tblPow (d : FVec F S100000 .f32) : FVec F S100000 .f32 :=
  select (cmpf .ogt d zeroTbl) (Host.powf (addf d tinyTbl) negHalfTbl) zeroTbl

/-- Per edge, the table's entry at the edge's source node. -/
def srcFactor (t : FVec F S100000 .f32) (a : IVec S2x6400000 32) : FVec F S6400000 .f32 :=
  Host.gather gather_S100000_S6400000x1_S6400000_n_0_n_n_0_1_1 t (srcCol a)

/-- Per edge, the table's entry at the edge's target node. -/
def dstFactor (t : FVec F S100000 .f32) (a : IVec S2x6400000 32) : FVec F S6400000 .f32 :=
  Host.gather gather_S100000_S6400000x1_S6400000_n_0_n_n_0_1_1 t (dstCol a)

/-- Per edge, the product of the table's entries at the edge's two end nodes. -/
def edgeProd (t : FVec F S100000 .f32) (a : IVec S2x6400000 32) : FVec F S6400000 .f32 :=
  mulf (srcFactor t a) (dstFactor t a)

/-- On the extended reals the two spellings of the table are one function of the degrees. -/
theorem tbl_eq (d : FVec Ideal S100000 .f32) : tblRsqrt d = tblPow d :=
  Cert.LibRsqrtPow.guarded_rsqrt_eq_pow d zeroTbl tinyTbl negHalfTbl zeroTbl _ Cert.LibRsqrtPow.tiny_pos
    (fun i => (show zeroTbl (F := Ideal) i = Ideal.ofBits .f32 0x00000000#32 from rfl).trans Ideal.ofBits_zero_f32)
    (fun i => (show tinyTbl (F := Ideal) i = Ideal.ofBits .f32 0x24E69595#32 from rfl).trans Cert.LibRsqrtPow.ofBits_tiny)
    (fun i => (show negHalfTbl (F := Ideal) i = Ideal.ofBits .f32 0xBF000000#32 from rfl).trans Cert.LibRsqrtPow.ofBits_neg_half)

end Cert.EdgeNorm

end
-- ==== Proof.RefRun.lean ====
/-
  What the reference program computes: its result array is the per-edge product of the table of inverse square roots of
  the degrees, the inverse square root spelt as the power -1/2 (`EdgeNorm.edgeProd (EdgeNorm.tblPow (EdgeNorm.degree a)) a`
  of the edge array `a`), and its argument array ends as launched.

  The program is a straight line of 48 host operations (the outlined `where` is one `select` in the caller's buffers), so its
  run is the fold of the operations' results over the launch contents; the composed term of the result buffer is, operation for
  operation, the specification's.
-/
import proofs.«147891_j51994874085826_2_alg».proof.Proof.EdgeNorm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- @main's 48 operations, in order; the call of the outlined `where` stands as its one operation. -/
abbrev ops : List (HloOp τ sig (Elt F)) :=
  [ StableHlo.unary main_arg0 main_v0 ((extractStridedSlice S1x6400000 ![0, 0] · slices_S2x6400000_S1x6400000_0_0) : (⟨S2x6400000, .i32⟩ : BufTy).Contents (Elt F) → (⟨S1x6400000, .i32⟩ : BufTy).Contents (Elt F)),
    StableHlo.reshape main_v0 main_v1 rfl shapeCasts_S1x6400000_S6400000,
    StableHlo.unary main_arg0 main_v2 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v2 main_v3 rfl shapeCasts_S1x6400000_S6400000,
    StableHlo.nullary main_cst (constant S_ .f32 0x00000000#32),
    StableHlo.unary main_cst main_v4 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v5 (broadcastInDim S6400000 ![] bcast_S_S6400000 : (⟨S_, .i32⟩ : BufTy).Contents (Elt F) → (⟨S6400000, .i32⟩ : BufTy).Contents (Elt F)),
    StableHlo.binary main_v3 main_v5 main_v6 (cmpi .slt : (⟨S6400000, .i32⟩ : BufTy).Contents (Elt F) → (⟨S6400000, .i32⟩ : BufTy).Contents (Elt F) → (⟨S6400000, .i1⟩ : BufTy).Contents (Elt F)),
    StableHlo.nullary main_c_0 (constantI S_ 32 100000#32),
    StableHlo.unary main_c_0 main_v7 (broadcastInDim S6400000 ![] bcast_S_S6400000 : (⟨S_, .i32⟩ : BufTy).Contents (Elt F) → (⟨S6400000, .i32⟩ : BufTy).Contents (Elt F)),
    StableHlo.binary main_v3 main_v7 main_v8 (addi : (⟨S6400000, .i32⟩ : BufTy).Contents (Elt F) → (⟨S6400000, .i32⟩ : BufTy).Contents (Elt F) → (⟨S6400000, .i32⟩ : BufTy).Contents (Elt F)),
    StableHlo.ternary main_v6 main_v8 main_v3 main_v9 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v9 main_v10 (broadcastInDim S6400000x1 ![0] bcast_S6400000_S6400000x1_0 : (⟨S6400000, .i32⟩ : BufTy).Contents (Elt F) → (⟨S6400000x1, .i32⟩ : BufTy).Contents (Elt F)),
    StableHlo.nullary main_cst_1 (constant S_ .f32 0x3F800000#32),
    StableHlo.unary main_cst_1 main_v11 (broadcastInDim S6400000 ![] bcast_S_S6400000 : (⟨S_, .f32⟩ : BufTy).Contents (Elt F) → (⟨S6400000, .f32⟩ : BufTy).Contents (Elt F)),
    StableHlo.ternary main_v4 main_v10 main_v11 main_v12 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    StableHlo.nullary main_cst_2 (constant S_ .f32 0x24E69595#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v12 main_v13 main_v14 (addf : (⟨S100000, .f32⟩ : BufTy).Contents (Elt F) → (⟨S100000, .f32⟩ : BufTy).Contents (Elt F) → (⟨S100000, .f32⟩ : BufTy).Contents (Elt F)),
    StableHlo.nullary main_cst_3 (constant S_ .f32 0xBF000000#32),
    StableHlo.unary main_cst_3 main_v15 (broadcastInDim S100000 ![] bcast_S_S100000 : (⟨S_, .f32⟩ : BufTy).Contents (Elt F) → (⟨S100000, .f32⟩ : BufTy).Contents (Elt F)),
    StableHlo.binary main_v14 main_v15 main_v16 (Host.powf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.unary main_cst_4 main_v17 (broadcastInDim S100000 ![] bcast_S_S100000 : (⟨S_, .f32⟩ : BufTy).Contents (Elt F) → (⟨S100000, .f32⟩ : BufTy).Contents (Elt F)),
    StableHlo.binary main_v12 main_v17 main_v18 (cmpf .ogt : (⟨S100000, .f32⟩ : BufTy).Contents (Elt F) → (⟨S100000, .f32⟩ : BufTy).Contents (Elt F) → (⟨S100000, .i1⟩ : BufTy).Contents (Elt F)),
    StableHlo.nullary main_cst_5 (constant S_ .f32 0x00000000#32),
    StableHlo.unary main_cst_5 main_v19 (broadcastInDim S100000 ![] bcast_S_S100000 : (⟨S_, .f32⟩ : BufTy).Contents (Elt F) → (⟨S100000, .f32⟩ : BufTy).Contents (Elt F)),
    StableHlo.TRef.ternary (.of main_v18 : StableHlo.TRef sig ⟨S100000, .i1⟩) (.of main_v16 : StableHlo.TRef sig ⟨S100000, .f32⟩) (.of main_v19 : StableHlo.TRef sig ⟨S100000, .f32⟩) (.of main_v20 : StableHlo.TRef sig ⟨S100000, .f32⟩) select,
    StableHlo.nullary main_c_6 (constantI S_ 32 0#32),
    StableHlo.unary main_c_6 main_v21 (broadcastInDim S6400000 ![] bcast_S_S6400000 : (⟨S_, .i32⟩ : BufTy).Contents (Elt F) → (⟨S6400000, .i32⟩ : BufTy).Contents (Elt F)),
    StableHlo.binary main_v1 main_v21 main_v22 (cmpi .slt : (⟨S6400000, .i32⟩ : BufTy).Contents (Elt F) → (⟨S6400000, .i32⟩ : BufTy).Contents (Elt F) → (⟨S6400000, .i1⟩ : BufTy).Contents (Elt F)),
    StableHlo.nullary main_c_7 (constantI S_ 32 100000#32),
    StableHlo.unary main_c_7 main_v23 (broadcastInDim S6400000 ![] bcast_S_S6400000 : (⟨S_, .i32⟩ : BufTy).Contents (Elt F) → (⟨S6400000, .i32⟩ : BufTy).Contents (Elt F)),
    StableHlo.binary main_v1 main_v23 main_v24 (addi : (⟨S6400000, .i32⟩ : BufTy).Contents (Elt F) → (⟨S6400000, .i32⟩ : BufTy).Contents (Elt F) → (⟨S6400000, .i32⟩ : BufTy).Contents (Elt F)),
    StableHlo.ternary main_v22 main_v24 main_v1 main_v25 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v25 main_v26 (broadcastInDim S6400000x1 ![0] bcast_S6400000_S6400000x1_0 : (⟨S6400000, .i32⟩ : BufTy).Contents (Elt F) → (⟨S6400000x1, .i32⟩ : BufTy).Contents (Elt F)),
    StableHlo.binary main_v20 main_v26 main_v27 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.nullary main_c_8 (constantI S_ 32 0#32),
    StableHlo.unary main_c_8 main_v28 (broadcastInDim S6400000 ![] bcast_S_S6400000 : (⟨S_, .i32⟩ : BufTy).Contents (Elt F) → (⟨S6400000, .i32⟩ : BufTy).Contents (Elt F)),
    StableHlo.binary main_v3 main_v28 main_v29 (cmpi .slt : (⟨S6400000, .i32⟩ : BufTy).Contents (Elt F) → (⟨S6400000, .i32⟩ : BufTy).Contents (Elt F) → (⟨S6400000, .i1⟩ : BufTy).Contents (Elt F)),
    StableHlo.nullary main_c_9 (constantI S_ 32 100000#32),
    StableHlo.unary main_c_9 main_v30 (broadcastInDim S6400000 ![] bcast_S_S6400000 : (⟨S_, .i32⟩ : BufTy).Contents (Elt F) → (⟨S6400000, .i32⟩ : BufTy).Contents (Elt F)),
    StableHlo.binary main_v3 main_v30 main_v31 (addi : (⟨S6400000, .i32⟩ : BufTy).Contents (Elt F) → (⟨S6400000, .i32⟩ : BufTy).Contents (Elt F) → (⟨S6400000, .i32⟩ : BufTy).Contents (Elt F)),
    StableHlo.ternary main_v29 main_v31 main_v3 main_v32 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    StableHlo.unary main_v32 main_v33 (broadcastInDim S6400000x1 ![0] bcast_S6400000_S6400000x1_0 : (⟨S6400000, .i32⟩ : BufTy).Contents (Elt F) → (⟨S6400000x1, .i32⟩ : BufTy).Contents (Elt F)),
    StableHlo.binary main_v20 main_v33 main_v34 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    StableHlo.binary main_v27 main_v34 main_v35 (mulf : (⟨S6400000, .f32⟩ : BufTy).Contents (Elt F) → (⟨S6400000, .f32⟩ : BufTy).Contents (Elt F) → (⟨S6400000, .f32⟩ : BufTy).Contents (Elt F)) ]

set_option maxRecDepth 8192 in
theorem main_eq (c : Dev nD) : main (F := F) c = StableHlo.seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

set_option maxRecDepth 8192 in
set_option maxHeartbeats 2000000 in
/-- Every weakly fair execution of the reference terminates with its result at the specification's term of the edge array,
    the edge array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = Cert.EdgeNorm.edgeProd (F := F) (Cert.EdgeNorm.tblPow (Cert.EdgeNorm.degree (m ((c.tc : Thread nD τ).loc main_arg0))))
            (m ((c.tc : Thread nD τ).loc main_arg0))
      ∧ r.2.mem ((c.tc : Thread nD τ).loc main_arg0) = m ((c.tc : Thread nD τ).loc main_arg0) :=
  (θ_run defs _ _).mono (fun _ h c => ⟨(h c main_v35).trans (by after_results_simp <;> rfl),
      (h c main_arg0).trans (by after_results_simp <;> rfl)⟩)
    (StableHlo.run_seq scopedRefs_eq scopedSems_eq defs main (fun _ => ops) main_eq (fun _ => ops_sub) m ρ)

end Cert.ReferenceIdeal.RefValue

end
-- ==== Proof.KernelValue.lean ====
/-
  What the kernel program computes: its result array is the per-edge product of the table of inverse square roots of the
  degrees, the inverse square root spelt as such (`EdgeNorm.edgeProd (EdgeNorm.tblRsqrt (EdgeNorm.degree a)) a` of the edge
  array `a`), and its argument array ends as launched.

  The program computes the two per-edge factors on the host, lays each out as a 50000 × 128 matrix (edge e at row e / 128,
  lane e % 128), multiplies the two matrices entry by entry in one pipelined region, and flattens the product back.
  The region's grid has 5 points; at point t each of its three windows is the block of rows [10000·t, 10000·t + 10000), all
  128 lanes, and the body stores the product of the two input blocks. So

    * what point t writes back is block t of the entrywise product of the two matrices (`flushed_eq`);
    * the 5 blocks cover the matrix — row r lies in block r / 10000 — so the output array ends as that product (`final`);
    * flattening the product of two matrices that are themselves re-laid vectors is the product of the vectors
      (`flat_prod`): a reshape moves entries and multiplies nothing, and there and back it is the identity.
-/
import proofs.«147891_j51994874085826_2_alg».proof.Proof.Gen.KernelIdeal.Frame
import proofs.«147891_j51994874085826_2_alg».proof.Proof.EdgeNorm
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The two factors, as the region finds them -/

/-- The region's first operand: the per-edge source factors over the table of inverse square roots, as a 50000 × 128 matrix. -/
theorem entry_src (c : Dev nD) :
    (V m c main_v34 : S50000x128.Idx → Elt F .f32)
      = shapeCast S50000x128 (Cert.EdgeNorm.srcFactor (F := F) (Cert.EdgeNorm.tblRsqrt (Cert.EdgeNorm.degree (m ((c : Thread nD τ).loc main_arg0))))
          (m ((c : Thread nD τ).loc main_arg0))) shapeCasts_S6400000_S50000x128 := by
  dsimp only [Gen.V, Gen.V0]
  simp only [Gen.hostOps0, Gen.hostOps0_1, Gen.hostOps0_2, List.flatten_cons, List.flatten_nil, List.append_nil, List.cons_append,
    List.nil_append]
  after_results_simp <;> rfl

/-- The region's second operand: the per-edge target factors, as a 50000 × 128 matrix. -/
theorem entry_dst (c : Dev nD) :
    (V m c main_v35 : S50000x128.Idx → Elt F .f32)
      = shapeCast S50000x128 (Cert.EdgeNorm.dstFactor (F := F) (Cert.EdgeNorm.tblRsqrt (Cert.EdgeNorm.degree (m ((c : Thread nD τ).loc main_arg0))))
          (m ((c : Thread nD τ).loc main_arg0))) shapeCasts_S6400000_S50000x128 := by
  dsimp only [Gen.V, Gen.V0]
  simp only [Gen.hostOps0, Gen.hostOps0_1, Gen.hostOps0_2, List.flatten_cons, List.flatten_nil, List.append_nil, List.cons_append,
    List.nil_append]
  after_results_simp <;> rfl

/-! ## From blocks to the output array -/

theorem origin2 : (![0, 0] : Fin 2 → Nat) = fun _ => 0 := funext fun a => by fin_cases a <;> rfl

/-- The entrywise product of two 50000 × 128 matrices. -/
abbrev prodArr (a0 a1 : S50000x128.Idx → Elt F .f32) : S50000x128.Idx → Elt F .f32 := fun i => FloatOps.mulf (a0 i) (a1 i)

/-- The body's stored value is the product of its two loaded blocks (the two reshapes in it are of a shape to itself). -/
theorem body_prod (x0 x1 : Vec F S10000x128 .f32) : k0_pay1 x0 x1 = mulf x0 x1 := by
  unfold k0_pay1
  dsimp only
  rw [shapeCast_self, shapeCast_self]

/-- The three windows move together: at point `t` each is at block row `t`, block column 0. -/
theorem windows_at : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 4 ∧ win0_2.index t (1 : Fin 2) = 0 :=
  (by decide +kernel : ∀ t : Fin grid0.N, _)

/-- Every block row is some point's. -/
theorem block_row_onto : ∀ q : Fin 5, ∃ t : Fin cfg0.N, win0_2.index t = ![q.val, 0] :=
  (by decide +kernel : ∀ q : Fin 5, ∃ t : Fin grid0.N, win0_2.index t = ![q.val, 0])

/-- What point `t` writes back is block `t` of the entrywise product of the two operand matrices. -/
theorem flushed_eq (c : Dev nD) (t : Fin cfg0.N) :
    (dats m 0 c).flushed 2 t = ((cfg0.win 2).blk t).view.read (Elt F) (prodArr (V m c main_v34) (V m c main_v35)) := by
  show (cfg0.win 2).cut (grid0.coords t) ((dats m 0 c).after 2 t) = _
  rw [after0_2]
  unfold out0_2
  rw [View.canon_unit_zero origin2]
  simp only [View.ld_unit_zero (S := S10000x128) origin2]
  rw [body_prod]
  obtain ⟨e0, e1, e2, e3, -, -⟩ := windows_at t
  funext j
  show FloatOps.mulf (V m c main_v34 (((cfg0.win 0).blk t).view.emb j)) (V m c main_v35 (((cfg0.win 1).blk t).view.emb j))
    = FloatOps.mulf (V m c main_v34 (((cfg0.win 2).blk t).view.emb j)) (V m c main_v35 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 128 + 1 * (j 1).val = win0_2.index t (1 : Fin 2) * 128 + 1 * (j 1).val; omega
  rw [h0, h1]

/-- An entry of the matrix is in point `t`'s block iff each coordinate is in the block's range on its axis. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v36).slice (win0_2.rect t)).set ↔ _
  rw [View.set_slice_whole, Rect.mem_set_unit]
  exact Iff.rfl

/-- The blocks cover the matrix: row `r` is in the block of the point at block row `r / 10000`. -/
theorem blocks_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_row_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output matrix after the region: the entrywise product of the two operand matrices. -/
theorem final (c : Dev nD) : (dats m 0 c).arrAt 2 cfg0.N = prodArr (V m c main_v34) (V m c main_v35) :=
  (dats m 0 c).arrAt_eq_of_cover 2 _ (fun t _ => flushed_eq m c t) blocks_cover

end Cert.KernelIdeal.KValue

end
-- ==== Proof.KernelRun.lean ====
/-
  The kernel program's run, read: after the region the one remaining host operation flattens the 50000 × 128 output matrix
  into the result vector, so the result is the flattened entrywise product of the two operand matrices — and since those
  are the two per-edge factor vectors laid out as matrices, it is the factors' product, edge by edge.
-/
import proofs.«147891_j51994874085826_2_alg».proof.Proof.KernelValue

set_option maxRecDepth 16384

noncomputable section

namespace Cert.KernelIdeal.KValue

open Cert.KernelIdeal Cert.KernelIdeal.Gen Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The result buffer after the host line that follows the region: the output matrix, flattened. -/
theorem tail_eq (c : Dev nD) :
    Pipeline.afterTail₀ cfgs (dats m) 0 (V0 m) [hostOps1] c main_v37
      = shapeCast S6400000 (prodArr (V m c main_v34) (V m c main_v35)) shapeCasts_S50000x128_S6400000 := by
  unfold Pipeline.afterTail₀
  show StableHlo.after hostOps1 _ (Proc.devRef .tc main_v37) = _
  after_results
  have e : Pipeline.withArrays (cfgs 0).spec c (V0 m c) (fun w => (dats m 0 c).arrAt w (cfgs 0).N) (Proc.devRef .tc main_v36)
      = prodArr (V m c main_v34) (V m c main_v35) :=
    (Pipeline.withArrays_arr spec0 launch0.win.arr_inj c _ _ 2).trans (final m c)
  rw [e]
  rfl

/-- Flattening the entrywise product of two vectors laid out as matrices gives the vectors' product: a reshape only moves
    entries, and a vector laid out as a matrix and flattened again is the vector. -/
theorem flat_prod (A B : FVec F S6400000 .f32) :
    shapeCast S6400000 (prodArr (shapeCast S50000x128 A shapeCasts_S6400000_S50000x128) (shapeCast S50000x128 B shapeCasts_S6400000_S50000x128))
        shapeCasts_S50000x128_S6400000
      = mulf A B := by
  have e : shapeCast S6400000 (prodArr (shapeCast S50000x128 A shapeCasts_S6400000_S50000x128) (shapeCast S50000x128 B shapeCasts_S6400000_S50000x128))
        shapeCasts_S50000x128_S6400000
      = mulf (shapeCast S6400000 (shapeCast S50000x128 A shapeCasts_S6400000_S50000x128) shapeCasts_S50000x128_S6400000)
          (shapeCast S6400000 (shapeCast S50000x128 B shapeCasts_S6400000_S50000x128) shapeCasts_S50000x128_S6400000) := rfl
  rw [e, shapeCast_shapeCast, shapeCast_shapeCast]

/-- The result buffer after the whole program: the per-edge product over the table of inverse square roots. -/
theorem result_eq (c : Dev nD) :
    Pipeline.afterTail₀ cfgs (dats m) 0 (V0 m) [hostOps1] c main_v37
      = Cert.EdgeNorm.edgeProd (F := F) (Cert.EdgeNorm.tblRsqrt (Cert.EdgeNorm.degree (m ((c : Thread nD τ).loc main_arg0))))
          (m ((c : Thread nD τ).loc main_arg0)) := by
  rw [tail_eq, entry_src, entry_dst]
  exact flat_prod _ _

/-- Every weakly fair execution of the kernel program terminates with its result at the specification's term of the edge
    array, the edge array unchanged. -/
theorem run : θ_run defs (onTc (τ := τ) (main (F := F))) ⟨m, fun _ => 0, ρ⟩ fun r => ∀ c : Dev nD,
      r.2.mem ((c.tc : Thread nD τ).loc main_v37)
        = Cert.EdgeNorm.edgeProd (F := F) (Cert.EdgeNorm.tblRsqrt (Cert.EdgeNorm.degree (m ((c.tc : Thread nD τ).loc main_arg0))))
            (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v37 (Pipeline.mem_restRefs_of main_v37 (by decide) (by decide))).trans (result_eq m c),
       ((h c).2 main_arg0 (Pipeline.mem_restRefs_of main_arg0 (by decide) (by decide))).trans (W_main_arg0 m (dats m) c)⟩)
    (run_main m ρ)

end Cert.KernelIdeal.KValue

end
-- ==== Proof.lean ====
/-
  The symmetric degree normalisation of a graph's edge list: per edge (i, j) the weight 1/√(deg i) · 1/√(deg j), where deg is the
  in-degree counted over the edges' target nodes, a node of degree 0 given the factor 0.

  Both programs compute the degrees by the same scatter-add, form the table  t[n] = where(deg n > 0, f(deg n + ε), 0)  and gather
  it at the two end nodes of every edge. They differ in two places. The kernel program spells f as the inverse square root,
  the reference as the power -1/2; and the kernel program multiplies the two gathered vectors inside a pipelined region, over
  a 50000 × 128 layout in 5 blocks of 10000 rows, where the reference multiplies them directly.

  On the extended reals neither difference is one. Where the guard deg n > 0 holds, deg n + ε is a positive extended real
  (ε > 0), and there x ^ (-1/2) = 1/√x — at a positive real because x ^ (1/2) = √x, at +∞ because both sides are 0; where the guard
  fails both tables hold 0 (`EdgeNorm.tbl_eq`, over `LibRsqrtPow`). And a blockwise entrywise product of two re-laid vectors,
  flattened, is the vectors' product (`KValue.run`). No hypothesis on the edge array is used: whatever integers it holds, both
  programs pass them through the same wrap-around, the same scatter and the same gathers.

  `EdgeNorm` states the result as one function of the edge array; `RefValue.run` and `KValue.run` read each program's run as that
  function with its own spelling of the table; the claim below joins them.
-/
import proofs.«147891_j51994874085826_2_alg».proof.Defs
import proofs.«147891_j51994874085826_2_alg».proof.Proof.Gen.Kernel
import proofs.«147891_j51994874085826_2_alg».proof.Proof.Gen.Kernel.Frame
import proofs.«147891_j51994874085826_2_alg».proof.Proof.Gen.KernelIdeal
import proofs.«147891_j51994874085826_2_alg».proof.Proof.Gen.KernelIdeal.Frame
import proofs.«147891_j51994874085826_2_alg».proof.Proof.Gen.ReferenceIdeal
import proofs.«147891_j51994874085826_2_alg».proof.Proof.EdgeNorm
import proofs.«147891_j51994874085826_2_alg».proof.Proof.RefRun
import proofs.«147891_j51994874085826_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves the edge array as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- And the reference: its run with the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- On the extended reals the kernel program ends at the per-edge product over the table spelt with the inverse square root, the
    reference at the per-edge product over the table spelt with the power -1/2, of edge arrays that agree: one function. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [hagree c, ← Cert.EdgeNorm.tbl_eq]

theorem claim : Cert.Claim :=
  ⟨Cert.Kernel.Gen.facts, Cert.KernelIdeal.Gen.facts, Cert.ReferenceIdeal.Gen.facts, frame_k, frame_ki, frame_ri, trivial, algebraic⟩

end Cert.Proof

end
